-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S1024x128 : Shape := ⟨2, ![1024, 128]⟩
abbrev S256x128 : Shape := ⟨2, ![256, 128]⟩
abbrev S128x1 : Shape := ⟨2, ![128, 1]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S128x1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  main_v23

def fn {F : FTy → Type} [FloatOps F] (main_arg0 : FVec F S8x1024x1024 .f32) (main_arg1 : FVec F S1024x128 .f32) (main_arg2 : FVec F S1024x128 .f32) (main_arg3 : FVec F S256x128 .f32) (main_arg4 : FVec F S128x1 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S8x1024x1024 : Shape := ⟨3, ![8, 1024, 1024]⟩
abbrev S1024x128 : Shape := ⟨2, ![1024, 128]⟩
abbrev S256x128 : Shape := ⟨2, ![256, 128]⟩
abbrev S128x1 : Shape := ⟨2, ![128, 1]⟩
abbrev S128x128 : Shape := ⟨2, ![128, 128]⟩
abbrev S128 : Shape := ⟨1, ![128]⟩
abbrev S8x128x128 : Shape := ⟨3, ![8, 128, 128]⟩
abbrev S128x1x128 : Shape := ⟨3, ![128, 1, 128]⟩
abbrev S1x128x128 : Shape := ⟨3, ![1, 128, 128]⟩
abbrev S128x128x128 : Shape := ⟨3, ![128, 128, 128]⟩
abbrev S1x1x128 : Shape := ⟨3, ![1, 1, 128]⟩

abbrev nBuf : Space → Nat
  | .hbm => 11
  | .vmem => 9
  | .smem => 0
  | _ => 0

abbrev bufTy : (tb : Table) → Fin (tcTables nBuf tb) → BufTy
  | .hbm, ⟨0, _⟩ => ⟨S8x1024x1024, .f32⟩
  | .hbm, ⟨1, _⟩ => ⟨S1024x128, .f32⟩
  | .hbm, ⟨2, _⟩ => ⟨S1024x128, .f32⟩
  | .hbm, ⟨3, _⟩ => ⟨S256x128, .f32⟩
  | .hbm, ⟨4, _⟩ => ⟨S128x1, .f32⟩
  | .hbm, ⟨5, _⟩ => ⟨S128x128, .f32⟩
  | .hbm, ⟨6, _⟩ => ⟨S1024x128, .f32⟩
  | .hbm, ⟨7, _⟩ => ⟨S128x128, .f32⟩
  | .hbm, ⟨8, _⟩ => ⟨S1024x128, .f32⟩
  | .hbm, ⟨9, _⟩ => ⟨S128, .f32⟩
  | .hbm, ⟨10, _⟩ => ⟨S8x1024x1024, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128, .f32⟩
  | .local _ .vmem, ⟨5, _⟩ => ⟨S8x128x128, .f32⟩
  | .local _ .vmem, ⟨6, _⟩ => ⟨S8x128x128, .f32⟩
  | .local _ .vmem, ⟨7, _⟩ => ⟨S8x128x128, .f32⟩
  | .local _ .vmem, ⟨8, _⟩ => ⟨S8x128x128, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S256x128_S128x128_0_0 : S256x128.Slices ![0, 0] S128x128
  slices_S256x128_S128x128_128_0 : S256x128.Slices ![128, 0] S128x128
  shapeCasts_S128x1_S128 : S128x1.ShapeCasts S128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128_S1x1x128 : S128.ShapeCasts S1x1x128
  broadcasts_S1x1x128_S128x128x128 : S1x1x128.Broadcasts S128x128x128
  reduces_S128x128x128_S128x128 : S128x128x128.Reduces [2] S128x128
  inb_S8x128x128_S8x128x128_0_0_0 : ∀ a, (![0, 0, 0] : Fin 3 → Nat) a + S8x128x128.size a ≤ S8x128x128.size a
  h_S8x128x128 : 0 < S8x128x128.numel
  broadcasts_S1x128x128_S8x128x128 : S1x128x128.Broadcasts S8x128x128
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x128.size a
  hwx0_0 : ∀ i : grid0.Coords, EltTy.bits .f32 = 32 ∨ (Rect.block (s := S1024x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x128.size a
  hwx0_1 : ∀ i : grid0.Coords, EltTy.bits .f32 = 32 ∨ (Rect.block (s := S1024x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x128.size a ≤ S8x1024x1024.size a
  hwx0_3 : ∀ i : grid0.Coords, EltTy.bits .f32 = 32 ∨ (Rect.block (s := S8x1024x1024) S8x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x128.size a ≤ S8x1024x1024.size a
  hwx0_4 : ∀ i : grid0.Coords, EltTy.bits .f32 = 32 ∨ (Rect.block (s := S8x1024x1024) S8x128x128.size (cc0_transform_4 i) (hinb0_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v1) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S8x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x1024 : Shape := ⟨3, ![8, 1024, 1024]⟩
abbrev S1024x128 : Shape := ⟨2, ![1024, 128]⟩
abbrev S256x128 : Shape := ⟨2, ![256, 128]⟩
abbrev S128x1 : Shape := ⟨2, ![128, 1]⟩
abbrev S128x128 : Shape := ⟨2, ![128, 128]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S_ : Shape := ⟨0, ![]⟩
abbrev S1024x1024x1 : Shape := ⟨3, ![1024, 1024, 1]⟩
abbrev S1024x1024 : Shape := ⟨2, ![1024, 1024]⟩
abbrev S1x1024x1024 : Shape := ⟨3, ![1, 1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S1024x128, .f32⟩
  | .hbm, ⟨2, _⟩ => ⟨S1024x128, .f32⟩
  | .hbm, ⟨3, _⟩ => ⟨S256x128, .f32⟩
  | .hbm, ⟨4, _⟩ => ⟨S128x1, .f32⟩
  | .hbm, ⟨5, _⟩ => ⟨S128x128, .f32⟩
  | .hbm, ⟨6, _⟩ => ⟨S1024x128, .f32⟩
  | .hbm, ⟨7, _⟩ => ⟨S128x128, .f32⟩
  | .hbm, ⟨8, _⟩ => ⟨S1024x128, .f32⟩
  | .hbm, ⟨9, _⟩ => ⟨S1024x1x128, .f32⟩
  | .hbm, ⟨10, _⟩ => ⟨S1x1024x128, .f32⟩
  | .hbm, ⟨11, _⟩ => ⟨S1024x1024x128, .f32⟩
  | .hbm, ⟨12, _⟩ => ⟨S1024x1024x128, .f32⟩
  | .hbm, ⟨13, _⟩ => ⟨S1024x1024x128, .f32⟩
  | .hbm, ⟨14, _⟩ => ⟨S_, .f32⟩
  | .hbm, ⟨15, _⟩ => ⟨S1024x1024x128, .f32⟩
  | .hbm, ⟨16, _⟩ => ⟨S1024x1024x128, .f32⟩
  | .hbm, ⟨17, _⟩ => ⟨S1024x1024x128, .f32⟩
  | .hbm, ⟨18, _⟩ => ⟨S1024x1024x128, .f32⟩
  | .hbm, ⟨19, _⟩ => ⟨S1024x1024x128, .i1⟩
  | .hbm, ⟨20, _⟩ => ⟨S1024x1024x128, .f32⟩
  | .hbm, ⟨21, _⟩ => ⟨S1024x1024x128, .f32⟩
  | .hbm, ⟨22, _⟩ => ⟨S1024x1024x128, .f32⟩
  | .hbm, ⟨23, _⟩ => ⟨S1024x1024x128, .f32⟩
  | .hbm, ⟨24, _⟩ => ⟨S1024x1024x128, .f32⟩
  | .hbm, ⟨25, _⟩ => ⟨S1024x1024x128, .f32⟩
  | .hbm, ⟨26, _⟩ => ⟨S1024x1024x128, .f32⟩
  | .hbm, ⟨27, _⟩ => ⟨S1024x1024x128, .f32⟩
  | .hbm, ⟨28, _⟩ => ⟨S1024x1024x1, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .i1⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S1x1024x1024, .f32⟩
  | .hbm, ⟨38, _⟩ => ⟨S8x1024x1024, .f32⟩
  | .hbm, ⟨39, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  bcast_S_S1024x1024x128 : S_.BroadcastsInDim S1024x1024x128 (![] : Fin 0 → Fin S1024x1024x128.rank)
  shapeCasts_S1024x1024x1_S1024x1024 : S1024x1024x1.ShapeCasts S1024x1024
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  dot_S1024x128_S128x128_S1024x128_1_0_0_1_n_n_wf : DotDims.WF S1024x128 S128x128 S1024x128 [1] [0] [0] [1] [] []
  dot_S1024x1024x128_S128x1_S1024x1024x1_2_0_01_1_n_n_wf : DotDims.WF S1024x1024x128 S128x1 S1024x1024x1 [2] [0] [0, 1] [1] [] []

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024x128_S128x1_S1024x1024x1_2_0_01_1_n_n : DotDims S1024x1024x128 S128x1 S1024x1024x1 where
  lhsContracting := [2]
  rhsContracting := [0]
  lhsNonContracting := [0, 1]
  rhsNonContracting := [1]
  lhsBatch := []
  rhsBatch := []
  wf := dot_S1024x1024x128_S128x1_S1024x1024x1_2_0_01_1_n_n_wf

class Facts : Prop extends Facts₀ where

variable [Facts]
-- ==== Proof.Softplus.lean ====
/-
  The mathematics both programs compute, on the extended reals, and the two spellings of it.

  softplus s = max s 0 + log (1 + e^(-|s|)), with |s| = max s (-s).  Both programs write it as jax's `logaddexp s 0`:
  d = s - 0, a guard "d ≠ d" (a NaN test: never true on the extended reals, where every value equals itself), the guarded
  value s + 0, and the main value max s 0 + log1p (exp (-|d|)).  One program negates |d| as 0 - |d| with an ordered
  "not equal", the other as -|d| with an unordered one; on the extended reals these are the same function of s.

  leaky m = m where m ≥ 0, else c·m, with c the float word nearest one tenth (the same word on both sides: it is never
  evaluated).

  The whole result: out (b, p, q) = leaky (Σ_k softplus (pr (p, k) + pe (q, k)) · w k) · x (b, p, q).
-/
import Idealize.ShloMosaic.PureOps.Ideal.Laws
import Idealize.ShloMosaic.Lib.ValueIdx

noncomputable section

namespace Cert.AdjSpec

open Idealize.ShloMosaic Idealize.ShloMosaic.ValueIdx

/-- The f32 word of +0.0, as the scalar the programs splat. -/
abbrev zeroW : Ideal .f32 := Scalar.ofBits (F := Ideal) .f32 0x00000000#32
/-- The f32 word nearest 0.1 (the leaky slope), as the scalar the programs splat. -/
abbrev slopeW : Ideal .f32 := Scalar.ofBits (F := Ideal) .f32 0x3DCCCCCD#32

theorem zeroW_eq : zeroW = (0 : EReal) := Ideal.ofBits_zero_f32

/-- softplus on the extended reals: max s 0 + log (1 + e^(-|s|)). -/
def softplus (s : EReal) : EReal := max s 0 + Ideal.log1p (Ideal.exp (-(max s (-s))))

/-- leaky relu with the slope word: m where 0 ≤ m, else slope · m. -/
def leaky (m : EReal) : EReal := Scalar.select (Ideal.cmp .oge m zeroW) m (slopeW * m)

/-- "s ≠ s" is the bit 0 on the extended reals, for the ordered and the unordered predicate alike. -/
theorem cmp_one_self (s : EReal) : Ideal.cmp .one s s = 0#1 := by simp [Ideal.cmp]
theorem cmp_une_self (s : EReal) : Ideal.cmp .une s s = 0#1 := by simp [Ideal.cmp]

/-- The spelling with 0 - |d| and the ordered guard is softplus. -/
theorem softplus_sub (s : Ideal .f32) :
    Scalar.select (FloatOps.cmpf .one (FloatOps.subf s zeroW) (FloatOps.subf s zeroW)) (FloatOps.addf s zeroW)
      (FloatOps.addf (FloatOps.maximumf s zeroW)
        (FloatOps.log1p (FloatOps.exp (FloatOps.subf zeroW (FloatOps.absf (FloatOps.subf s zeroW))))))
      = softplus s := by
  simp only [Ideal.subf_def, Ideal.addf_def, Ideal.maximumf_def, Ideal.log1p_def, Ideal.exp_def, Ideal.absf_def,
    Ideal.cmpf_def, zeroW_eq, sub_zero, zero_sub, add_zero]
  rw [cmp_one_self, select_zero]
  rfl

/-- The spelling with -|d| (the host's negate and abs) and the unordered guard is softplus. -/
theorem softplus_neg (s : Ideal .f32) :
    Scalar.select (FloatOps.cmpf .une (FloatOps.subf s zeroW) (FloatOps.subf s zeroW)) (FloatOps.addf s zeroW)
      (FloatOps.addf (FloatOps.maximumf s zeroW)
        (FloatOps.hostUnary .log1p (FloatOps.hostUnary .exp (FloatOps.hostNegf (FloatOps.hostAbsf (FloatOps.subf s zeroW))))))
      = softplus s := by
  simp only [Ideal.subf_def, Ideal.addf_def, Ideal.maximumf_def, Ideal.hostUnary_log1p_def, Ideal.hostUnary_exp_def,
    Ideal.hostNegf_def, Ideal.hostAbsf_def, Ideal.negf_def, Ideal.absf_def, Ideal.cmpf_def, zeroW_eq, sub_zero, add_zero]
  rw [cmp_une_self, select_zero]
  rfl

/-- The leaky relu as both programs spell it. -/
theorem leaky_spelt (m : Ideal .f32) :
    Scalar.select (FloatOps.cmpf .oge m zeroW) m (FloatOps.mulf slopeW m) = leaky m := rfl

/-- The entry of the adjacency at (p, q): leaky of the weighted sum over the 128 style coordinates. -/
def adj (pr pe : (⟨2, ![1024, 128]⟩ : Shape).Idx → EReal) (w : Fin 128 → EReal) (p q : Fin 1024) : EReal :=
  leaky (∑ k : Fin 128, softplus (pr (ix2 p k) + pe (ix2 q k)) * w k)

/-- The whole result array: the adjacency entry at (p, q) times x at (b, p, q). -/
def adjMul (pr pe : (⟨2, ![1024, 128]⟩ : Shape).Idx → EReal) (w : Fin 128 → EReal)
    (x : (⟨3, ![8, 1024, 1024]⟩ : Shape).Idx → EReal) : (⟨3, ![8, 1024, 1024]⟩ : Shape).Idx → EReal :=
  fun i => adj pr pe w (i 1) (i 2) * x i

theorem adjMul_ix3 (pr pe : (⟨2, ![1024, 128]⟩ : Shape).Idx → EReal) (w : Fin 128 → EReal)
    (x : (⟨3, ![8, 1024, 1024]⟩ : Shape).Idx → EReal) (b : Fin 8) (p q : Fin 1024) :
    adjMul pr pe w x (ix3 b p q) = adj pr pe w p q * x (ix3 b p q) := rfl

end Cert.AdjSpec

end
-- ==== Proof.RefValue.lean ====
/-
  The reference's result, stage by stage at an index, is the specification `adjMul`.

  Reading the reference's operations at an index (b, p, q):
  • the two row projections pr = product · w1[0:128] and pe = person · w1[128:256] enter unopened (the kernel's program
    computes them by the same two host products);
  • pr broadcast along q and pe broadcast along p, added, read (p, q, k) ↦ pr (p, k) + pe (q, k);
  • jax's softplus of it, in the host's spelling, is `softplus` of that entry;
  • the contraction with w2 over the style axis k, at (p, q, 0), is Σ_k softplus (…) · w2 (k, 0); dropping the unit axis
    reads (p, q) at (p, q, 0);
  • where-on-sign and the batch broadcast give leaky (…) at (p, q) times x at (b, p, q).
-/
import proofs.«115619_j13134009991680_1_alg».proof.Proof.Gen.ReferenceIdeal.Read
import proofs.«115619_j13134009991680_1_alg».proof.Proof.Softplus

noncomputable section

namespace Cert.ReferenceIdeal.RefValue

open Cert.ReferenceIdeal Cert.ReferenceIdeal.Read Idealize.ShloMosaic Idealize.ShloMosaic.ValueIdx Cert.AdjSpec

variable (x0 : (⟨S8x1024x1024, .f32⟩ : BufTy).Contents (Elt Ideal))
  (x1 x2 : (⟨S1024x128, .f32⟩ : BufTy).Contents (Elt Ideal))
  (x3 : (⟨S256x128, .f32⟩ : BufTy).Contents (Elt Ideal))
  (x4 : (⟨S128x1, .f32⟩ : BufTy).Contents (Elt Ideal))

/-- The broadcast sum at (p, q, k) is pr (p, k) + pe (q, k). -/
theorem cartesian_stage (p q : Fin 1024) (k : Fin 128) :
    val_main_v8 (F := Ideal) x1 x2 x3 (ix3 p q k)
      = val_main_v1 (F := Ideal) x1 x3 (ix2 p k) + val_main_v3 (F := Ideal) x2 x3 (ix2 q k) := by
  have i1 : idx_main_v4 (idx_main_v6 (ix3 p q k)) = ix2 p k :=
    funext fun a => by match a with | ⟨0, _⟩ => rfl | ⟨1, _⟩ => rfl
  have i2 : idx_main_v5 (idx_main_v7 (ix3 p q k)) = ix2 q k :=
    funext fun a => by match a with | ⟨0, _⟩ => rfl | ⟨1, _⟩ => rfl
  rw [val_main_v8_apply, val_main_v6_apply, val_main_v4_apply, val_main_v7_apply, val_main_v5_apply, i1, i2]
  rfl

/-- The reference's softplus stage at (p, q, k). -/
theorem softplus_stage (p q : Fin 1024) (k : Fin 128) :
    val_main_v9 (F := Ideal) x1 x2 x3 (ix3 p q k)
      = softplus (val_main_v1 (F := Ideal) x1 x3 (ix2 p k) + val_main_v3 (F := Ideal) x2 x3 (ix2 q k)) := by
  rw [val_main_v9_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, cartesian_stage]
  exact softplus_neg _

/-- The contraction with w2, with its unit axis dropped, at (p, q). -/
theorem sum_stage (p q : Fin 1024) :
    val_main_v11 (F := Ideal) x1 x2 x3 x4 (ix2 p q)
      = ∑ k : Fin 128, softplus (val_main_v1 (F := Ideal) x1 x3 (ix2 p k) + val_main_v3 (F := Ideal) x2 x3 (ix2 q k))
          * x4 (ix2 k (0 : Fin 1)) := by
  have hp : p.val < 1024 := p.isLt
  have hq : q.val < 1024 := q.isLt
  have i11 : idx_main_v11 (ix2 p q) = ix3 p q (0 : Fin 1) := funext fun a => Fin.ext (by
    match a with
    | ⟨0, _⟩ => show (p.val * 1024 + q.val) / 1024 = p.val; omega
    | ⟨1, _⟩ => show (p.val * 1024 + q.val) / 1 % 1024 = q.val; omega
    | ⟨2, _⟩ => rfl)
  rw [val_main_v11_apply, i11, val_main_v10_apply]
  refine Finset.sum_congr rfl fun k _ => ?_
  have il : lidx_main_v10 (ix3 p q (0 : Fin 1)) k = ix3 p q k :=
    funext fun a => by match a with | ⟨0, _⟩ => rfl | ⟨1, _⟩ => rfl | ⟨2, _⟩ => rfl
  have ir : ridx_main_v10 (ix3 p q (0 : Fin 1)) k = ix2 k (0 : Fin 1) :=
    funext fun a => by match a with | ⟨0, _⟩ => rfl | ⟨1, _⟩ => rfl
  rw [il, ir, softplus_stage]

/-- THE REFERENCE IS THE SPECIFICATION: its last stage is `adjMul` of the two projections, w2's one column and x. -/
theorem result_eq :
    val_main_v19 (F := Ideal) x0 x1 x2 x3 x4
      = adjMul (val_main_v1 (F := Ideal) x1 x3) (val_main_v3 (F := Ideal) x2 x3) (fun k => x4 (ix2 k (0 : Fin 1))) x0 := by
  funext i
  obtain ⟨b, p, q, rfl⟩ : ∃ (b : Fin 8) (p q : Fin 1024), i = ix3 b p q := ⟨i 0, i 1, i 2, eq_ix3 i⟩
  have i17 : idx_main_v17 (idx_main_v18 (ix3 b p q)) = ix2 p q :=
    funext fun a => by match a with | ⟨0, _⟩ => rfl | ⟨1, _⟩ => rfl
  rw [adjMul_ix3, val_main_v19_apply, val_main_v18_apply, val_main_v17_apply, i17, val_main_v16_apply, val_main_v13_apply,
    val_main_v15_apply, val_main_v12_apply, val_main_v14_apply, val_main_cst_apply, val_main_cst_0_apply, sum_stage]
  rfl

end Cert.ReferenceIdeal.RefValue

end
-- ==== Proof.LibFlattenBroadcast.lean ====
/-
  Layout operations read at an index written by coordinates, for the shapes a "join two sequences, then one matrix
  product" kernel meets and Lib/ValueLayout.lean does not have.

  A shape cast keeps the row-major position of every element. So
  • inserting a unit axis in the middle, [a, c] → [a, 1, c], reads (p, ·, d) at (p, d);
  • merging the two leading axes, [a, b, c] → [a·b, c], reads row p·b + q at (p, q, ·), and splitting them again,
    [a·b, c] → [a, b, c], reads (p, q, ·) at row p·b + q. The merged extent is a literal in a printed program
    (2048, not 16·128), so it is a variable `n` here and only the row's value is related to p·b + q.
  A broadcast along an axis of extent one reads the operand's one entry on that axis:
  • [a, 1, c] → [a, b, c] reads (p, q, d) at (p, 0, d);
  • [1, b, c] → [a, b, c] reads (p, q, d) at (0, q, d).
-/
import Idealize.ShloMosaic.Lib.ValueLayout

namespace Cert.LibFlattenBroadcast

open Idealize.ShloMosaic Idealize.ShloMosaic.ValueIdx

variable {α : Type}

/-- An `[a, c]` array cast to `[a, 1, c]` reads, at `(p, u, d)`, the operand at `(p, d)`, whatever the unit
    coordinate `u`: both sit at row-major position p·c + d. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_two, Shape.rowMajor_val_three]
    show p.val * c + d.val = (p.val * 1 + u.val) * c + d.val
    rw [hu, Nat.mul_one, Nat.add_zero])

/-- An `[a, b, c]` array with its two leading axes merged, `[n, c]` with n = a·b, reads, at row `r = p·b + q` and
    column `d`, the operand at `(p, q, d)`: both sit at row-major position (p·b + q)·c + d. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- An `[n, c]` array, n = a·b, with its leading axis split, `[a, b, c]`, reads, at `(p, q, d)`, the operand at row
    `r = p·b + q` and column `d`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ x h (ix3 p q d) = x (ix2 r d) :=
  shapeCast_apply x h _ _ (by
    rw [Shape.rowMajor_val_two, Shape.rowMajor_val_three]
    show r.val * c + d.val = (p.val * b + q.val) * c + d.val
    rw [hr])

/-- An `[a, 1, c]` array broadcast to `[a, b, c]` reads, at `(p, q, d)`, the operand at `(p, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(p, q, d)`, the operand at `(0, q, d)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

end Cert.LibFlattenBroadcast
-- ==== Proof.LibLaneSum.lean ====
/-
  Two readings at an index written by coordinates, for a body that weights the last ("lane") axis of a rank-3 array by a
  vector and then sums that axis away.

  • A vector seen as a rank-3 array, [c] → [1, 1, c], reads (·, ·, d) at d: a shape cast keeps the row-major position,
    and the two unit axes contribute nothing to it.
  • That array broadcast along both leading axes, [1, 1, c] → [a, b, c], reads (p, q, d) at (0, 0, d).
  • At the exact (extended-real) values, the sum of an [a, b, c] array over its last axis, read at (p, q), is the sum
    over d of the entries (p, q, d): the source index over (p, q) with d inserted on the summed axis is (p, q, d).
-/
import Idealize.ShloMosaic.Lib.ValueLayout
import Idealize.ShloMosaic.PureOps.Ideal.Laws

namespace Cert.LibLaneSum

open Idealize.ShloMosaic Idealize.ShloMosaic.ValueIdx

variable {α : Type}

/-- A `[c]` vector cast to `[1, 1, c]` reads, at `(u, v, d)`, the operand at `d`, whatever the unit coordinates. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_one, Shape.rowMajor_val_three]
    show d.val = (u.val * 1 + v.val) * c + d.val
    rw [hu, hv]
    simp)

/-- A `[1, 1, c]` array broadcast to `[a, b, c]` reads, at `(p, q, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (d : Fin c) :
    broadcastTo ⟨3, ![a, b, c]⟩ v h (ix3 p q d) = v (ix3 (0 : Fin 1) (0 : Fin 1) d) := by
  refine broadcastTo_apply v h (ix3 p q d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- Over the result index `(p, q)` of a sum along the last axis of an `[a, b, c]` array, the source index with `d` on
    the summed axis is `(p, q, d)`. -/
theorem lift_last_ix3 {a b c : ℕ} (h : (⟨3, ![a, b, c]⟩ : Shape).Reduces [2] ⟨2, ![a, b]⟩) (p : Fin a) (q : Fin b) (d : Fin c) :
    h.lift (ix2 p q) d = ix3 p q d := by
  funext ax
  match ax with
  | ⟨0, _⟩ => rfl
  | ⟨1, _⟩ => rfl
  | ⟨2, _⟩ => rfl

/-- At the exact values, an `<add>` reduction of an `[a, b, c]` array along its last axis, read at `(p, q)`, is the sum
    over `d` of the entries `(p, q, d)`. The accumulator word's side condition is taken in whatever spelling the
    caller's term carries it. -/
theorem multiReduction_add_last_apply {φ : FTy} {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ d : Fin c, src (ix3 p q d) := by
  refine (Ideal.multiReduction_add_single src acc h hφ hacc (ix2 p q)).trans ?_
  exact Finset.sum_congr rfl fun d _ => congrArg src (lift_last_ix3 h p q d)

end Cert.LibLaneSum
-- ==== Proof.KernelBlock.lean ====
/-
  What the kernel's body stores at one entry of its output block.

  At a grid point the body holds a 128×128 block P0 of the row projection pr (rows r), a 128×128 block P1 of the row
  projection pe (rows c), the whole weight vector P2 and an 8×128×128 block P3 of x.  It forms the cartesian sum
  (r, c, k) ↦ P0 (r, k) + P1 (c, k) by two broadcasts, takes softplus of it entry by entry, weights the last axis by P2,
  sums that axis away, applies the leaky relu, and multiplies every batch slice of P3 by the resulting 128×128 matrix.
  So the stored value at (b, r, c) is
      leaky (Σ_k softplus (P0 (r, k) + P1 (c, k)) · P2 k) · P3 (b, r, c).
  The body's text is first restated as five named pieces (equal to the payload by unfolding), then each piece is read
  at coordinates.
-/
import proofs.«115619_j13134009991680_1_alg».proof.Proof.Gen.KernelIdeal.Skeleton
import proofs.«115619_j13134009991680_1_alg».proof.Proof.Softplus
import proofs.«115619_j13134009991680_1_alg».proof.Proof.LibFlattenBroadcast
import proofs.«115619_j13134009991680_1_alg».proof.Proof.LibLaneSum

noncomputable section

namespace Cert.KernelIdeal.Block

open Cert.KernelIdeal Cert.KernelIdeal.Gen Idealize.ShloMosaic Idealize.ShloMosaic.ValueIdx
open Cert.AdjSpec Cert.LibFlattenBroadcast Cert.LibLaneSum

/-! ## The body's pieces -/

/-- The rows of a 128×128 block repeated along the middle axis: (r, c, k) ↦ P (r, k). -/
def alongRows (P : Vec Ideal S128x128 .f32) : FVec Ideal S128x128x128 .f32 :=
  broadcastTo S128x128x128 (shapeCast S128x1x128 (shapeCast S128x128 P shapeCasts_S128x128_S128x128)
    shapeCasts_S128x128_S128x1x128) broadcasts_S128x1x128_S128x128x128

/-- The rows of a 128×128 block repeated along the leading axis: (r, c, k) ↦ P (c, k). -/
def alongCols (P : Vec Ideal S128x128 .f32) : FVec Ideal S128x128x128 .f32 :=
  broadcastTo S128x128x128 (shapeCast S1x128x128 (shapeCast S128x128 P shapeCasts_S128x128_S128x128)
    shapeCasts_S128x128_S1x128x128) broadcasts_S1x128x128_S128x128x128

/-- A 128-vector repeated along both leading axes: (r, c, k) ↦ W k. -/
def alongLanes (W : Vec Ideal S128 .f32) : FVec Ideal S128x128x128 .f32 :=
  broadcastTo S128x128x128 (shapeCast S1x1x128 (shapeCast S128 W shapeCasts_S128_S128) shapeCasts_S128_S1x1x128)
    broadcasts_S1x1x128_S128x128x128

/-- softplus of every entry, in the body's spelling (jax's logaddexp against zero). -/
def softplusV (A : FVec Ideal S128x128x128 .f32) : FVec Ideal S128x128x128 .f32 :=
  select (cmpf .one (subf A (broadcast S128x128x128 zeroW)) (subf A (broadcast S128x128x128 zeroW)))
    (addf A (broadcast S128x128x128 zeroW))
    (addf (maximumf A (broadcast S128x128x128 zeroW))
      (log1p (exp (subf (broadcast S128x128x128 zeroW) (absf (subf A (broadcast S128x128x128 zeroW)))))))

/-- The weighted sum over the last axis. -/
def laneSum (P0 P1 : Vec Ideal S128x128 .f32) (P2 : Vec Ideal S128 .f32) : FVec Ideal S128x128 .f32 :=
  multiReduction .add [2] S128x128 (mulf (softplusV (addf (alongRows P0) (alongCols P1))) (alongLanes P2))
    0x00000000#32 reduces_S128x128x128_S128x128 (.inl rfl) rfl

/-- The leaky relu of every entry, in the body's spelling. -/
def leakyV (M : FVec Ideal S128x128 .f32) : FVec Ideal S128x128 .f32 :=
  select (cmpf .oge M (broadcast S128x128 zeroW)) M (mulf (broadcast S128x128 slopeW) M)

/-- A 128×128 matrix repeated over the 8 batch slices: (b, r, c) ↦ A (r, c). -/
def overBatch (A : FVec Ideal S128x128 .f32) : FVec Ideal S8x128x128 .f32 :=
  broadcastTo S8x128x128 (shapeCast S1x128x128 A shapeCasts_S128x128_S1x128x128) broadcasts_S1x128x128_S8x128x128

/-- The body's stored value is these pieces composed. -/
theorem pay_eq (P0 P1 : Vec Ideal S128x128 .f32) (P2 : Vec Ideal S128 .f32) (P3 : Vec Ideal S8x128x128 .f32) :
    k0_pay1 P0 P1 P2 P3 = mulf (overBatch (leakyV (laneSum P0 P1 P2))) P3 := rfl

/-! ## Each piece at coordinates -/

theorem alongRows_apply (P : Vec Ideal S128x128 .f32) (r c k : Fin 128) : alongRows P (ix3 r c k) = P (ix2 r k) := by
  unfold alongRows
  rw [shapeCast_self]
  exact (broadcastTo_a1c_abc_apply _ broadcasts_S128x1x128_S128x128x128 r c k).trans
    (shapeCast_ac_a1c_apply P shapeCasts_S128x128_S128x1x128 r 0 k)

theorem alongCols_apply (P : Vec Ideal S128x128 .f32) (r c k : Fin 128) : alongCols P (ix3 r c k) = P (ix2 c k) := by
  unfold alongCols
  rw [shapeCast_self]
  exact (broadcastTo_1bc_abc_apply _ broadcasts_S1x128x128_S128x128x128 r c k).trans
    (shapeCast_ab_1ab_apply P shapeCasts_S128x128_S1x128x128 0 c k)

theorem alongLanes_apply (W : Vec Ideal S128 .f32) (r c k : Fin 128) : alongLanes W (ix3 r c k) = W (ix1 k) := by
  unfold alongLanes
  rw [shapeCast_self]
  exact (broadcastTo_11c_abc_apply _ broadcasts_S1x1x128_S128x128x128 r c k).trans
    (shapeCast_c_11c_apply W shapeCasts_S128_S1x1x128 0 0 k)

theorem overBatch_apply (A : FVec Ideal S128x128 .f32) (b : Fin 8) (r c : Fin 128) :
    overBatch A (ix3 b r c) = A (ix2 r c) := by
  unfold overBatch
  exact (broadcastTo_1bc_abc_apply _ broadcasts_S1x128x128_S8x128x128 b r c).trans
    (shapeCast_ab_1ab_apply A shapeCasts_S128x128_S1x128x128 0 r c)

theorem softplusV_apply (A : FVec Ideal S128x128x128 .f32) (j : S128x128x128.Idx) :
    softplusV A j = softplus (A j) := softplus_sub (A j)

theorem leakyV_apply (M : FVec Ideal S128x128 .f32) (j : S128x128.Idx) : leakyV M j = leaky (M j) := rfl

/-- The weighted sum at (r, c): Σ_k softplus (P0 (r, k) + P1 (c, k)) · P2 k. -/
theorem laneSum_apply (P0 P1 : Vec Ideal S128x128 .f32) (P2 : Vec Ideal S128 .f32) (r c : Fin 128) :
    laneSum P0 P1 P2 (ix2 r c) = ∑ k : Fin 128, softplus (P0 (ix2 r k) + P1 (ix2 c k)) * P2 (ix1 k) := by
  unfold laneSum
  refine (multiReduction_add_last_apply _ _ reduces_S128x128x128_S128x128 _ _ r c).trans ?_
  refine Finset.sum_congr rfl fun k _ => ?_
  rw [mulf_apply, softplusV_apply, addf_apply, alongRows_apply, alongCols_apply, alongLanes_apply]

/-- THE STORED VALUE at (b, r, c). -/
theorem pay_apply (P0 P1 : Vec Ideal S128x128 .f32) (P2 : Vec Ideal S128 .f32) (P3 : Vec Ideal S8x128x128 .f32)
    (b : Fin 8) (r c : Fin 128) :
    k0_pay1 P0 P1 P2 P3 (ix3 b r c)
      = leaky (∑ k : Fin 128, softplus (P0 (ix2 r k) + P1 (ix2 c k)) * P2 (ix1 k)) * P3 (ix3 b r c) := by
  rw [pay_eq, mulf_apply, overBatch_apply, leakyV_apply, laneSum_apply]

end Cert.KernelIdeal.Block

end
-- ==== Proof.LibColumnVector.lean ====
/-
  A column read as a vector: an [a, 1] array reshaped to [a] reads i at (i, 0). A shape cast keeps the row-major
  position, and row i of a one-column array sits at position i·1 + 0 = i.
-/
import Idealize.ShloMosaic.Lib.ValueLayout

namespace Cert.LibColumnVector

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumnVector
-- ==== Proof.KernelHost.lean ====
/-
  What the pallas region finds in the three arrays the host operations before it compute:
  • main_v1 = product · w1[0:128]   (the row projection pr),
  • main_v3 = person · w1[128:256]  (the row projection pe),
  • main_v4 = w2's one column as a vector, so entry k is w2 (k, 0).
  The two matrix products are kept as the host's own terms: the reference computes them by the same operations.
-/
import proofs.«115619_j13134009991680_1_alg».proof.Proof.Gen.KernelIdeal.Frame
import proofs.«115619_j13134009991680_1_alg».proof.Proof.LibColumnVector
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx Cert.LibColumnVector

variable (m : (ℓ : Loc nD τ sig) → Buf (Elt Ideal) ℓ)

/-- One host matrix product [1024, 128] · [128, 128], at the program's precision and schedule. -/
def rowProj (x : FVec Ideal S1024x128 .f32) (w : FVec Ideal S128x128 .f32) : FVec Ideal S1024x128 .f32 :=
  Host.dotGeneral (F := Ideal) dot_S1024x128_S128x128_S1024x128_1_0_0_1_n_n none x w

/-- The row projection of `product`: product · w1[0:128]. -/
def prOf (c : Dev nD) : FVec Ideal S1024x128 .f32 :=
  rowProj (m ((c : Thread nD τ).loc main_arg1))
    (extractStridedSlice S128x128 ![0, 0]
      (m ((c : Thread nD τ).loc main_arg3) : FVec Ideal S256x128 .f32) slices_S256x128_S128x128_0_0)

/-- The row projection of `person`: person · w1[128:256]. -/
def peOf (c : Dev nD) : FVec Ideal S1024x128 .f32 :=
  rowProj (m ((c : Thread nD τ).loc main_arg2))
    (extractStridedSlice S128x128 ![128, 0]
      (m ((c : Thread nD τ).loc main_arg3) : FVec Ideal S256x128 .f32) slices_S256x128_S128x128_128_0)

theorem V_main_v1 (c : Dev nD) : (V m c main_v1 : S1024x128.Idx → EReal) = prOf m c := by
  dsimp only [Gen.V, Gen.hostOps0]; after_results; rfl

theorem V_main_v3 (c : Dev nD) : (V m c main_v3 : S1024x128.Idx → EReal) = peOf m c := by
  dsimp only [Gen.V, Gen.hostOps0]; after_results; rfl

theorem V_main_v4 (c : Dev nD) :
    (V m c main_v4 : S128.Idx → EReal) = shapeCast S128 (m ((c : Thread nD τ).loc main_arg4)) shapeCasts_S128x1_S128 := by
  dsimp only [Gen.V, Gen.hostOps0]; after_results; rfl

/-- Entry k of the weight vector the region finds is w2 (k, 0). -/
theorem V_main_v4_apply (c : Dev nD) (k : Fin 128) :
    (V m c main_v4 : S128.Idx → EReal) (ix1 k) = (m ((c : Thread nD τ).loc main_arg4) : S128x1.Idx → EReal) (ix2 k (0 : Fin 1)) := by
  rw [V_main_v4]
  exact shapeCast_a1_a_apply _ shapeCasts_S128x1_S128 k

end Cert.KernelIdeal.Prefix

end
-- ==== Proof.KernelArray.lean ====
/-
  From what each grid point writes back to the whole result array.

  The grid is 8 × 8; at point t = (I, J) the output window's block is (0, I, J) of extents 8 × 128 × 128, the pr window's
  block is row block I, the pe window's block is row block J, the weight vector is fetched whole, and the x window's block
  is the output's.  So the element (b, r, c) of the output block sits at array index (b, 128·I + r, 128·J + c); the body's
  value there (Block.pay_apply) reads pr at rows 128·I + r, pe at rows 128·J + c and x at that same array index: it is the
  specification `adjMul` of the arrays the region finds, read through the block.  The 64 blocks tile the array (the point
  covering (b, p, q) is the one with I = p / 128, J = q / 128), so the array ends holding `adjMul` of those arrays.
-/
import proofs.«115619_j13134009991680_1_alg».proof.Proof.Gen.KernelIdeal.Frame
import proofs.«115619_j13134009991680_1_alg».proof.Proof.KernelBlock
import proofs.«115619_j13134009991680_1_alg».proof.Proof.KernelHost
import Idealize.ShloMosaic.Lib.Pipeline.Value

noncomputable section

namespace Cert.KernelIdeal.Array

open Cert.KernelIdeal Cert.KernelIdeal.Gen Idealize.ShloMosaic Idealize.ShloMosaic.TcCoe Idealize.SL.Sem
open Idealize.ShloMosaic.Pipeline (Dat)
open Idealize.ShloMosaic.ValueIdx Cert.AdjSpec Cert.KernelIdeal.Block Cert.KernelIdeal.Prefix

variable (m : (ℓ : Loc nD τ sig) → Buf (Elt Ideal) ℓ) (ρ : Dev nD → PrngReg)

theorem off1 : (![0] : Fin 1 → Nat) = fun _ => 0 := funext fun a => by fin_cases a <;> rfl
theorem off2 : (![0, 0] : Fin 2 → Nat) = fun _ => 0 := funext fun a => by fin_cases a <;> rfl
theorem off3 : (![0, 0, 0] : Fin 3 → Nat) = fun _ => 0 := funext fun a => by fin_cases a <;> rfl

/-- The specification over the arrays as the region finds them. -/
abbrev atEntry (c : Dev nD) : S8x1024x1024.Idx → EReal :=
  adjMul (V m c main_v1) (V m c main_v3) (fun k => (V m c main_v4 : S128.Idx → EReal) (ix1 k)) (V m c main_arg0)

/-- The entry at an array index whose body values read the right rows is the specification's. -/
theorem entry_of_reads (pr pe : (⟨2, ![1024, 128]⟩ : Shape).Idx → EReal) (w : Fin 128 → EReal)
    (x : (⟨3, ![8, 1024, 1024]⟩ : Shape).Idx → EReal)
    (P0 P1 : Vec Ideal S128x128 .f32) (P2 : Vec Ideal S128 .f32) (P3 : Vec Ideal S8x128x128 .f32)
    (b : Fin 8) (r c : Fin 128) (i : (⟨3, ![8, 1024, 1024]⟩ : Shape).Idx)
    (h0 : ∀ k : Fin 128, P0 (ix2 r k) = pr (ix2 (i 1) k)) (h1 : ∀ k : Fin 128, P1 (ix2 c k) = pe (ix2 (i 2) k))
    (h2 : ∀ k : Fin 128, P2 (ix1 k) = w k) (h3 : P3 (ix3 b r c) = x i) :
    k0_pay1 P0 P1 P2 P3 (ix3 b r c) = adjMul pr pe w x i := by
  rw [pay_apply, h3]
  show _ = adj pr pe w (i 1) (i 2) * x i
  unfold adj
  simp only [h0, h1, h2]

/-- The printed index maps over the 64 grid points: which block of each array a point works on. -/
theorem idx_facts : ∀ t : Fin cfg0.N,
    win0_0.index t (0 : Fin 2) = win0_4.index t (1 : Fin 3) ∧ win0_0.index t (1 : Fin 2) = 0
    ∧ win0_1.index t (0 : Fin 2) = win0_4.index t (2 : Fin 3) ∧ win0_1.index t (1 : Fin 2) = 0
    ∧ win0_2.index t (0 : Fin 1) = 0
    ∧ win0_3.index t (0 : Fin 3) = win0_4.index t (0 : Fin 3)
    ∧ win0_3.index t (1 : Fin 3) = win0_4.index t (1 : Fin 3)
    ∧ win0_3.index t (2 : Fin 3) = win0_4.index t (2 : Fin 3) :=
  (by decide +kernel : ∀ t : Fin grid0.N, _)

/-- Every block (0, I, J) of the output is some point's. -/
theorem idx_onto : ∀ (q1 q2 : Fin 8), ∃ t : Fin cfg0.N, win0_4.index t = ![0, q1.val, q2.val] :=
  (by decide +kernel : ∀ (q1 q2 : Fin 8), ∃ t : Fin grid0.N, win0_4.index t = ![0, q1.val, q2.val])

/-- WHAT POINT t WRITES BACK is block t of the specification over the arrays the region finds. -/
theorem flushed_eq (c : Dev nD) (t : Fin cfg0.N) :
    (dats m 0 c).flushed 4 t = ((cfg0.win 4).blk t).view.read (Elt Ideal) (atEntry m c) := by
  show (cfg0.win 4).cut (grid0.coords t) ((dats m 0 c).after 4 t) = _
  rw [after0_4]
  unfold out0_4
  rw [View.canon_unit_zero off3]
  simp only [View.ld_unit_zero (S := S128x128) off2, View.ld_unit_zero (S := S128) off1,
    View.ld_unit_zero (S := S8x128x128) off3]
  obtain ⟨e00, e01, e10, e11, e2, e30, e31, e32⟩ := idx_facts t
  funext y
  obtain ⟨b, r, q, rfl⟩ : ∃ (b : Fin 8) (r q : Fin 128), y = ix3 b r q := ⟨y 0, y 1, y 2, eq_ix3 y⟩
  show k0_pay1 (iblk m c 0 t) (iblk m c 1 t) (iblk m c 2 t) (iblk m c 3 t) (ix3 b r q)
    = atEntry m c (((cfg0.win 4).blk t).view.emb (ix3 b r q))
  refine entry_of_reads (V m c main_v1) (V m c main_v3) (fun k => (V m c main_v4 : S128.Idx → EReal) (ix1 k)) (V m c main_arg0)
    (iblk m c 0 t) (iblk m c 1 t) (iblk m c 2 t) (iblk m c 3 t) b r q (((cfg0.win 4).blk t).view.emb (ix3 b r q)) ?_ ?_ ?_ ?_
  · intro k
    show V m c main_v1 (((cfg0.win 0).blk t).view.emb (ix2 r k)) = V m c main_v1 _
    refine congrArg (V m c main_v1) (funext fun a => Fin.ext ?_)
    match a with
    | ⟨0, _⟩ => show win0_0.index t (0 : Fin 2) * 128 + 1 * r.val = win0_4.index t (1 : Fin 3) * 128 + 1 * r.val; omega
    | ⟨1, _⟩ => show win0_0.index t (1 : Fin 2) * 128 + 1 * k.val = k.val; omega
  · intro k
    show V m c main_v3 (((cfg0.win 1).blk t).view.emb (ix2 q k)) = V m c main_v3 _
    refine congrArg (V m c main_v3) (funext fun a => Fin.ext ?_)
    match a with
    | ⟨0, _⟩ => show win0_1.index t (0 : Fin 2) * 128 + 1 * q.val = win0_4.index t (2 : Fin 3) * 128 + 1 * q.val; omega
    | ⟨1, _⟩ => show win0_1.index t (1 : Fin 2) * 128 + 1 * k.val = k.val; omega
  · intro k
    show V m c main_v4 (((cfg0.win 2).blk t).view.emb (ix1 k)) = V m c main_v4 _
    refine congrArg (V m c main_v4) (funext fun a => Fin.ext ?_)
    match a with
    | ⟨0, _⟩ => show win0_2.index t (0 : Fin 1) * 128 + 1 * k.val = k.val; omega
  · show V m c main_arg0 (((cfg0.win 3).blk t).view.emb (ix3 b r q)) = V m c main_arg0 _
    refine congrArg (V m c main_arg0) (funext fun a => Fin.ext ?_)
    match a with
    | ⟨0, _⟩ => show win0_3.index t (0 : Fin 3) * 8 + 1 * b.val = win0_4.index t (0 : Fin 3) * 8 + 1 * b.val; omega
    | ⟨1, _⟩ => show win0_3.index t (1 : Fin 3) * 128 + 1 * r.val = win0_4.index t (1 : Fin 3) * 128 + 1 * r.val; omega
    | ⟨2, _⟩ => show win0_3.index t (2 : Fin 3) * 128 + 1 * q.val = win0_4.index t (2 : Fin 3) * 128 + 1 * q.val; omega

/-- An array index is in point t's block iff each coordinate is in the block's range on its axis. -/
theorem mem_blk (t : Fin cfg0.N) (i : S8x1024x1024.Idx) :
    i ∈ ((cfg0.win 4).blk t).view.set ↔ ∀ a : Fin 3, win0_4.index t a * S8x128x128.size a ≤ (i a).val
      ∧ (i a).val < win0_4.index t a * S8x128x128.size a + S8x128x128.size a := by
  show i ∈ ((View.whole main_v5).slice (win0_4.rect t)).set ↔ _
  rw [View.set_slice_whole, Rect.mem_set_unit]
  exact Iff.rfl

/-- The 64 blocks cover the array: (b, p, q) is in the block of the point with I = p / 128 and J = q / 128. -/
theorem cover (i : S8x1024x1024.Idx) :
    ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 1024 := (i 2).isLt
  obtain ⟨t, ht⟩ := idx_onto ⟨(i 1).val / 128, by omega⟩ ⟨(i 2).val / 128, by omega⟩
  have q0 : win0_4.index t (0 : Fin 3) = 0 := congrFun ht 0
  have q1 : win0_4.index t (1 : Fin 3) = (i 1).val / 128 := congrFun ht 1
  have q2 : win0_4.index t (2 : Fin 3) = (i 2).val / 128 := congrFun ht 2
  refine ⟨t, flush0_4 t, ?_⟩
  rw [mem_blk]
  intro a
  match a with
  | ⟨0, _⟩ => show win0_4.index t (0 : Fin 3) * 8 ≤ (i 0).val ∧ (i 0).val < win0_4.index t (0 : Fin 3) * 8 + 8; omega
  | ⟨1, _⟩ => show win0_4.index t (1 : Fin 3) * 128 ≤ (i 1).val ∧ (i 1).val < win0_4.index t (1 : Fin 3) * 128 + 128; omega
  | ⟨2, _⟩ => show win0_4.index t (2 : Fin 3) * 128 ≤ (i 2).val ∧ (i 2).val < win0_4.index t (2 : Fin 3) * 128 + 128; omega

/-- THE RESULT ARRAY after the run, over the program's arguments: the specification of the two row projections, w2's
    one column and x. -/
abbrev result (c : Dev nD) : S8x1024x1024.Idx → EReal :=
  adjMul (prOf m c) (peOf m c) (fun k => (m ((c : Thread nD τ).loc main_arg4) : S128x1.Idx → EReal) (ix2 k (0 : Fin 1)))
    (m ((c : Thread nD τ).loc main_arg0))

theorem atEntry_eq (c : Dev nD) : atEntry m c = result m c := by
  unfold atEntry result
  rw [V_main_v1, V_main_v3, V_main_arg0]
  exact congrArg (fun w => adjMul (prOf m c) (peOf m c) w (m ((c : Thread nD τ).loc main_arg0)))
    (funext fun k => V_main_v4_apply m c k)

theorem final (c : Dev nD) : (dats m 0 c).arrAt 4 cfg0.N = result m c :=
  ((dats m 0 c).arrAt_eq_of_cover 4 (atEntry m c) (fun t _ => flushed_eq m c t) (cover)).trans (atEntry_eq m c)

/-- The run, read: the result array at the specification, every argument unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 4).trans (final m c),
      ((h c).1 3).trans (((dats m 0 c).arrAt_in 3 rfl _).trans ((A_eq m c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Array

end
-- ==== Proof.lean ====
/-
  The certificate of the broadcast-multiply by a pairwise adjacency:
      out (b, p, q) = leaky (Σ_k softplus (pr (p, k) + pe (q, k)) · w2 (k, 0)) · x (b, p, q),
  with pr = product · w1[0:128] and pe = person · w1[128:256] (two host matrix products both programs share),
  softplus s = max s 0 + log (1 + e^(-|s|)) and leaky m = m for m ≥ 0, else slope · m.

  The kernel tiles (p, q) into 8 × 8 blocks of 128 × 128 and, per block, sums the style axis k after weighting it by
  w2's column; the reference contracts that axis by one matrix product with w2. On the extended reals both are the same
  finite sum of the same products in the same order, softplus is one function in either spelling of its negation and
  of its never-true "is not a number" guard, and the leaky slope is the same float word on both sides. So the two
  results are one function of the arguments, index by index, and no finiteness of the inputs is used for that.

  Frames: the two kernel programs' are generated whole; the reference's is its generated run with the result dropped.
  The idealization rewrote no operation, so there is nothing to preserve.
-/
import proofs.«115619_j13134009991680_1_alg».proof.Defs
import proofs.«115619_j13134009991680_1_alg».proof.Proof.Gen.Kernel
import proofs.«115619_j13134009991680_1_alg».proof.Proof.Gen.Kernel.Skeleton
import proofs.«115619_j13134009991680_1_alg».proof.Proof.Gen.Kernel.Launch
import proofs.«115619_j13134009991680_1_alg».proof.Proof.Gen.Kernel.Points
import proofs.«115619_j13134009991680_1_alg».proof.Proof.Gen.Kernel.Frame
import proofs.«115619_j13134009991680_1_alg».proof.Proof.Gen.KernelIdeal
import proofs.«115619_j13134009991680_1_alg».proof.Proof.Gen.KernelIdeal.Skeleton
import proofs.«115619_j13134009991680_1_alg».proof.Proof.Gen.KernelIdeal.Launch
import proofs.«115619_j13134009991680_1_alg».proof.Proof.Gen.KernelIdeal.Points
import proofs.«115619_j13134009991680_1_alg».proof.Proof.Gen.KernelIdeal.Frame
import proofs.«115619_j13134009991680_1_alg».proof.Proof.Gen.ReferenceIdeal
import proofs.«115619_j13134009991680_1_alg».proof.Proof.Gen.Pre_finite_inputs
import proofs.«115619_j13134009991680_1_alg».proof.Proof.Gen.ReferenceIdeal.Run
import proofs.«115619_j13134009991680_1_alg».proof.Proof.Gen.ReferenceIdeal.Read
import proofs.«115619_j13134009991680_1_alg».proof.Proof.RefValue
import proofs.«115619_j13134009991680_1_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, from memories that agree on the arguments, end with the result array at the specification of the
    arguments: the kernel's by its blocks tiling the array, the reference's stage by stage; the two row projections are
    the same host products of the same arguments. -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq]
  obtain ⟨a0, a1, a2, a3, a4⟩ := hagree c
  rw [a0, a1, a2, a3, a4]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
